-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x512 : Shape := ⟨3, ![512, 64, 512]⟩
abbrev S1x512x512 : Shape := ⟨3, ![1, 512, 512]⟩
abbrev S1x1x512 : Shape := ⟨3, ![1, 1, 512]⟩
abbrev S_ : Shape := ⟨0, ![]⟩

class Facts : Prop where
  bcast_S_S512x64x512 : S_.BroadcastsInDim S512x64x512 (![] : Fin 0 → Fin S512x64x512.rank)
  reducesTo_S512x64x512_S_d0_1_2 : S512x64x512.ReducesTo [0, 1, 2] S_
  h_S_ : 0 < S_.numel
  bcast_S_S1x512x512 : S_.BroadcastsInDim S1x512x512 (![] : Fin 0 → Fin S1x512x512.rank)
  reducesTo_S1x512x512_S_d0_1_2 : S1x512x512.ReducesTo [0, 1, 2] S_
  bcast_S_S1x1x512 : S_.BroadcastsInDim S1x1x512 (![] : Fin 0 → Fin S1x1x512.rank)
  reducesTo_S1x1x512_S_d0_1_2 : S1x1x512.ReducesTo [0, 1, 2] S_

variable [Facts]

def fn {F : FTy → Type} [FloatOps F] (main_arg0 : FVec F S512x64x512 .f32) (main_arg1 : FVec F S1x512x512 .f32) (main_arg2 : FVec F S1x1x512 .f32) : IVec S_ 1 :=
  let main_v0 : FVec F S512x64x512 .f32 := Host.absf main_arg0
  let main_cst : FVec F S_ .f32 := constant S_ .f32 0x7F800000#32
  let main_v1 : FVec F S512x64x512 .f32 := broadcastInDim S512x64x512 ![] bcast_S_S512x64x512 main_cst
  let main_v2 : IVec S512x64x512 1 := cmpf .olt main_v0 main_v1
  let main_c : IVec S_ 1 := constantI S_ 1 1#1
  let main_v3 : IVec S_ 1 := (fun x v => Host.reduce IntOp.andi x v reducesTo_S512x64x512_S_d0_1_2 h_S_) main_v2 main_c
  let main_v4 : FVec F S1x512x512 .f32 := Host.absf main_arg1
  let main_cst_0 : FVec F S_ .f32 := constant S_ .f32 0x7F800000#32
  let main_v5 : FVec F S1x512x512 .f32 := broadcastInDim S1x512x512 ![] bcast_S_S1x512x512 main_cst_0
  let main_v6 : IVec S1x512x512 1 := cmpf .olt main_v4 main_v5
  let main_c_1 : IVec S_ 1 := constantI S_ 1 1#1
  let main_v7 : IVec S_ 1 := (fun x v => Host.reduce IntOp.andi x v reducesTo_S1x512x512_S_d0_1_2 h_S_) main_v6 main_c_1
  let main_v8 : IVec S_ 1 := andi main_v3 main_v7
  let main_v9 : FVec F S1x1x512 .f32 := Host.absf main_arg2
  let main_cst_2 : FVec F S_ .f32 := constant S_ .f32 0x7F800000#32
  let main_v10 : FVec F S1x1x512 .f32 := broadcastInDim S1x1x512 ![] bcast_S_S1x1x512 main_cst_2
  let main_v11 : IVec S1x1x512 1 := cmpf .olt main_v9 main_v10
  let main_c_3 : IVec S_ 1 := constantI S_ 1 1#1
  let main_v12 : IVec S_ 1 := (fun x v => Host.reduce IntOp.andi x v reducesTo_S1x1x512_S_d0_1_2 h_S_) main_v11 main_c_3
  let main_v13 : IVec S_ 1 := andi main_v8 main_v12
  main_v13
-- ==== Kernel.lean ====
abbrev S512x64x512 : Shape := ⟨3, ![512, 64, 512]⟩
abbrev S1x512x512 : Shape := ⟨3, ![1, 512, 512]⟩
abbrev S1x1x512 : Shape := ⟨3, ![1, 1, 512]⟩
abbrev S32768x512 : Shape := ⟨2, ![32768, 512]⟩
abbrev S512x512 : Shape := ⟨2, ![512, 512]⟩
abbrev S1x512 : Shape := ⟨2, ![1, 512]⟩
abbrev S2048x512 : Shape := ⟨2, ![2048, 512]⟩

abbrev nBuf : Space → Nat
  | .hbm => 9
  | .vmem => 6
  | .smem => 0
  | _ => 0

abbrev bufTy : (tb : Table) → Fin (tcTables nBuf tb) → BufTy
  | .hbm, ⟨0, _⟩ => ⟨S512x64x512, .f32⟩
  | .hbm, ⟨1, _⟩ => ⟨S1x512x512, .f32⟩
  | .hbm, ⟨2, _⟩ => ⟨S1x1x512, .f32⟩
  | .hbm, ⟨3, _⟩ => ⟨S32768x512, .f32⟩
  | .hbm, ⟨4, _⟩ => ⟨S512x512, .f32⟩
  | .hbm, ⟨5, _⟩ => ⟨S512x512, .bf16⟩
  | .hbm, ⟨6, _⟩ => ⟨S1x512, .f32⟩
  | .hbm, ⟨7, _⟩ => ⟨S32768x512, .f32⟩
  | .hbm, ⟨8, _⟩ => ⟨S512x64x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S512x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x64x512_S32768x512 : S512x64x512.ShapeCasts S32768x512
  shapeCasts_S1x512x512_S512x512 : S1x512x512.ShapeCasts S512x512
  bitsLt_bf16_f32 : FTy.bits .bf16 < FTy.bits .f32
  shapeCasts_S1x1x512_S1x512 : S1x1x512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S32768x512_S512x64x512 : S32768x512.ShapeCasts S512x64x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x64x512 : Shape := ⟨3, ![512, 64, 512]⟩
abbrev S1x512x512 : Shape := ⟨3, ![1, 512, 512]⟩
abbrev S1x1x512 : Shape := ⟨3, ![1, 1, 512]⟩
abbrev S32768x512 : Shape := ⟨2, ![32768, 512]⟩
abbrev S512x512 : Shape := ⟨2, ![512, 512]⟩
abbrev S1x512 : Shape := ⟨2, ![1, 512]⟩
abbrev S512x256 : Shape := ⟨2, ![512, 256]⟩
abbrev S1x256 : Shape := ⟨2, ![1, 256]⟩

abbrev nBuf : Space → Nat
  | .hbm => 8
  | .vmem => 9
  | .smem => 0
  | _ => 0

abbrev bufTy : (tb : Table) → Fin (tcTables nBuf tb) → BufTy
  | .hbm, ⟨0, _⟩ => ⟨S512x64x512, .f32⟩
  | .hbm, ⟨1, _⟩ => ⟨S1x512x512, .f32⟩
  | .hbm, ⟨2, _⟩ => ⟨S1x1x512, .f32⟩
  | .hbm, ⟨3, _⟩ => ⟨S32768x512, .f32⟩
  | .hbm, ⟨4, _⟩ => ⟨S512x512, .f32⟩
  | .hbm, ⟨5, _⟩ => ⟨S1x512, .f32⟩
  | .hbm, ⟨6, _⟩ => ⟨S32768x512, .f32⟩
  | .hbm, ⟨7, _⟩ => ⟨S512x64x512, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S512x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![64, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S512x64x512_S32768x512 : S512x64x512.ShapeCasts S32768x512
  shapeCasts_S1x512x512_S512x512 : S1x512x512.ShapeCasts S512x512
  shapeCasts_S1x1x512_S1x512 : S1x1x512.ShapeCasts S1x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S32768x512_S512x64x512 : S32768x512.ShapeCasts S512x64x512
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x512.size a
  hwx0_1 : ∀ i : grid0.Coords, EltTy.bits .f32 = 32 ∨ (Rect.block (s := S512x512) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x512.size a
  hwx0_2 : ∀ i : grid0.Coords, EltTy.bits .f32 = 32 ∨ (Rect.block (s := S1x512) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S32768x512.size a
  hwx0_3 : ∀ i : grid0.Coords, EltTy.bits .f32 = 32 ∨ (Rect.block (s := S32768x512) S512x256.size (cc0_transform_3 i) (hinb0_3 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KernelPayload.lean ====
/-
  The kernel's block at an entry.

  One grid point loads a block of 2048 rows of X, the whole weight matrix (already rounded to the narrow format, which
  over the extended reals changes nothing) and the bias row, and stores  rows · W + bias.  At row `p` of the block and
  column `q` that is  Σ_{k < 512} rows(p, k) · W(k, q) + bias(0, q):  the narrowing of the rows is the identity, the
  product into the zero accumulator is the plain sum of products, and the bias row is repeated down the rows.
-/
import proofs.«139283_g2000004521431584_pallasbulk_209_2_alg».proof.Proof.Gen.KernelIdeal.Skeleton
import proofs.«139283_g2000004521431584_pallasbulk_209_2_alg».proof.Proof.LibMatmulPlain
import Idealize.ShloMosaic.Lib.Pipeline.Value

noncomputable section

open scoped BigOperators

namespace Cert.KernelIdeal.Bridge

open Idealize.ShloMosaic Idealize.ShloMosaic.ValueIdx Cert.KernelIdeal Cert.KernelIdeal.Gen

/-- The bias row repeated down 2048 rows reads, at `(p, q)`, the row's entry `q`. -/
theorem bias_rows (b : FVec Ideal S1x512 .f32) (h : S1x512.Broadcasts S2048x512) (p : Fin 2048) (q : Fin 512) :
    broadcastTo S2048x512 b h (ix2 p q) = b (ix2 (0 : Fin 1) q) :=
  broadcastTo_apply b h (ix2 p q) (ix2 (0 : Fin 1) q) (fun a => by
    match a with
    | ⟨0, _⟩ => rfl
    | ⟨1, _⟩ => rfl)

/-- The stored block at row `p`, column `q`. -/
theorem pay_apply (x0 : FVec Ideal S2048x512 .f32) (x1 : FVec Ideal S512x512 .bf16) (x2 : FVec Ideal S1x512 .f32)
    (p : Fin 2048) (q : Fin 512) :
    k0_pay1 (F := Ideal) x0 x1 x2 (ix2 p q) = (∑ k : Fin 512, x0 (ix2 p k) * x1 (ix2 k q)) + x2 (ix2 (0 : Fin 1) q) := by
  unfold k0_pay1
  simp only [shapeCast_self]
  refine (addf_apply _ _ _).trans ?_
  refine congrArg₂ (· + ·) ?_ ?_
  · exact Cert.LibMatmulPlain.matmul_plain_zero_apply _ rfl none _ x1 p q
  · exact bias_rows x2 _ p q

end Cert.KernelIdeal.Bridge

end
-- ==== Proof.Affine.lean ====
/-
  The specification: one shared linear layer applied to every row.

  The input of shape [512, 64, 512] is read as a matrix X of 32768 = 512·64 rows and 512 columns, the weight of shape
  [1, 512, 512] as a 512×512 matrix W and the bias of shape [1, 1, 512] as a row B. The result is, at row r and column n,

      Σ_{k < 512} X(r, k) · W(k, n) + B(0, n),

  read back at shape [512, 64, 512]. The three re-readings of the arguments and the one of the result are the same
  row-major re-indexings on both sides of the comparison, so they are carried as they are and never opened.
-/
import Idealize.ShloMosaic.PureOps.Ideal
import Idealize.ShloMosaic.Lib.ValueIdx

noncomputable section

open scoped BigOperators

namespace Cert.Affine

open Idealize.ShloMosaic Idealize.ShloMosaic.ValueIdx

/-- The row matrix: 32768 rows of 512 entries. -/
abbrev SX : Shape := ⟨2, ![32768, 512]⟩
/-- The weight matrix. -/
abbrev SW : Shape := ⟨2, ![512, 512]⟩
/-- The bias row. -/
abbrev SB : Shape := ⟨2, ![1, 512]⟩
/-- The input and the result as given. -/
abbrev S3X : Shape := ⟨3, ![512, 64, 512]⟩
/-- The weight as given. -/
abbrev S3W : Shape := ⟨3, ![1, 512, 512]⟩
/-- The bias as given. -/
abbrev S3B : Shape := ⟨3, ![1, 1, 512]⟩

/-- Row `r`, column `n` of X·W + B. -/
def entry (X : SX.Idx → EReal) (W : SW.Idx → EReal) (B : SB.Idx → EReal) (r : Fin 32768) (n : Fin 512) : EReal :=
  (∑ k : Fin 512, X (ix2 r k) * W (ix2 k n)) + B (ix2 (0 : Fin 1) n)

/-- X·W + B as one matrix. -/
def affine (X : SX.Idx → EReal) (W : SW.Idx → EReal) (B : SB.Idx → EReal) : SX.Idx → EReal :=
  fun i => entry X W B (i 0) (i 1)

/-- The matrix at an index given by its coordinates. -/
theorem affine_apply (X : SX.Idx → EReal) (W : SW.Idx → EReal) (B : SB.Idx → EReal) (r : Fin 32768) (n : Fin 512) :
    affine X W B (ix2 r n) = entry X W B r n := rfl

/-- The whole result from the arguments as given: re-read them as matrices, apply the layer, re-read the result. -/
def result (h0 : S3X.ShapeCasts SX) (h1 : S3W.ShapeCasts SW) (h2 : S3B.ShapeCasts SB) (h3 : SX.ShapeCasts S3X)
    (a0 : S3X.Idx → EReal) (a1 : S3W.Idx → EReal) (a2 : S3B.Idx → EReal) : S3X.Idx → EReal :=
  shapeCast S3X (affine (shapeCast SX a0 h0) (shapeCast SW a1 h1) (shapeCast SB a2 h2)) h3

end Cert.Affine

end
-- ==== Proof.KernelValue.lean ====
/-
  The kernel's result array.

  The grid has 16 points; point `t` reads rows 2048·t … 2048·t + 2047 of X, the whole of W and B, and writes the same
  rows of the output. So what point `t` writes back is block `t` of the one matrix X·W + B, the 16 blocks cover all
  32768 rows, and the output array ends as X·W + B. Before the grid the three arguments are re-read as matrices (and W
  narrowed, the identity over the extended reals); after it the output is re-read at the result's shape.
-/
import proofs.«139283_g2000004521431584_pallasbulk_209_2_alg».proof.Proof.Gen.KernelIdeal.Frame
import proofs.«139283_g2000004521431584_pallasbulk_209_2_alg».proof.Proof.KernelPayload
import proofs.«139283_g2000004521431584_pallasbulk_209_2_alg».proof.Proof.Affine
import Idealize.ShloMosaic.Lib.Pipeline.Value
import Idealize.ShloMosaic.Lib.StableHlo.Run

noncomputable section

open scoped BigOperators

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen Cert.Affine

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`: the row windows (input rows, output rows) at block row `t`, the
    weight and the bias always at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the rows block at point `t` is row 2048·t + p of X. -/
theorem rows_apply (c : Dev nD) (t : Fin cfg0.N) (p : Fin 2048) (k : Fin 512) (h : 2048 * t.val + p.val < 32768) :
    iblk m c 0 t (ix2 p k) = V m c main_v0 (ix2 (⟨2048 * t.val + p.val, h⟩ : Fin 32768) k) := by
  obtain ⟨e0, e1, -⟩ := idx_facts t
  unfold iblk
  rw [View.read_apply]
  show V m c main_v0 (((cfg0.win 0).blk t).view.emb (ix2 p k)) = V m c main_v0 _
  refine congrArg (V m c main_v0) (funext fun a => Fin.ext ?_)
  match a with
  | ⟨0, _⟩ => show win0_0.index t (0 : Fin 2) * 2048 + 1 * p.val = 2048 * t.val + p.val; omega
  | ⟨1, _⟩ => show win0_0.index t (1 : Fin 2) * 512 + 1 * k.val = k.val; omega

/-- The weight block at any point is the whole of W. -/
theorem weight_apply (c : Dev nD) (t : Fin cfg0.N) (k : Fin 512) (q : Fin 512) :
    iblk m c 1 t (ix2 k q) = V m c main_v2 (ix2 k q) := by
  obtain ⟨-, -, e2, e3, -⟩ := idx_facts t
  unfold iblk
  rw [View.read_apply]
  show V m c main_v2 (((cfg0.win 1).blk t).view.emb (ix2 k q)) = V m c main_v2 _
  refine congrArg (V m c main_v2) (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- The bias block at any point is the whole of B. -/
theorem bias_apply (c : Dev nD) (t : Fin cfg0.N) (z : Fin 1) (q : Fin 512) :
    iblk m c 2 t (ix2 z q) = V m c main_v3 (ix2 z q) := by
  obtain ⟨-, -, -, -, e4, e5, -⟩ := idx_facts t
  unfold iblk
  rw [View.read_apply]
  show V m c main_v3 (((cfg0.win 2).blk t).view.emb (ix2 z q)) = V m c main_v3 _
  refine congrArg (V m c main_v3) (funext fun a => Fin.ext ?_)
  match a with
  | ⟨0, _⟩ => show win0_2.index t (0 : Fin 2) * 1 + 1 * z.val = z.val; omega
  | ⟨1, _⟩ => show win0_2.index t (1 : Fin 2) * 512 + 1 * q.val = q.val; omega

/-- WHAT POINT `t` WRITES BACK is block `t` of X·W + B, over the arrays as the grid finds them. -/
theorem flushed_eq (c : Dev nD) (t : Fin cfg0.N) :
    (dats m 0 c).flushed 3 t
      = ((cfg0.win 3).blk t).view.read (Elt Ideal) (affine (V m c main_v0) (V m c main_v2) (V m c main_v3)) := by
  show (cfg0.win 3).cut (grid0.coords t) ((dats m 0 c).after 3 t) = _
  rw [after0_3]
  unfold out0_3
  rw [View.canon_unit_zero hz]
  simp only [View.ld_unit_zero (S := S2048x512) hz, View.ld_unit_zero (S := S512x512) hz, View.ld_unit_zero (S := S1x512) hz]
  have hN : cfg0.N = 16 := N_0
  have ht : t.val < 16 := by have := t.isLt; omega
  obtain ⟨-, -, -, -, -, -, e6, e7⟩ := idx_facts t
  refine funext fun (j : S2048x512.Idx) => ?_
  obtain ⟨p, q, rfl⟩ : ∃ (p : Fin 2048) (q : Fin 512), j = ix2 p q := ⟨j 0, j 1, eq_ix2 j⟩
  have hp : p.val < 2048 := p.isLt
  have hemb : ((cfg0.win 3).blk t).view.emb (ix2 p q) = ix2 (⟨2048 * t.val + p.val, by omega⟩ : Fin 32768) q :=
    funext fun a => Fin.ext (by
      match a with
      | ⟨0, _⟩ => show win0_3.index t (0 : Fin 2) * 2048 + 1 * p.val = 2048 * t.val + p.val; omega
      | ⟨1, _⟩ => show win0_3.index t (1 : Fin 2) * 512 + 1 * q.val = q.val; omega)
  show k0_pay1 (iblk m c 0 t) (iblk m c 1 t) (iblk m c 2 t) (ix2 p q)
    = affine (V m c main_v0) (V m c main_v2) (V m c main_v3) (((cfg0.win 3).blk t).view.emb (ix2 p q))
  rw [hemb, affine_apply, pay_apply]
  unfold entry
  refine congrArg₂ (· + ·) (Finset.sum_congr rfl fun k _ => ?_) ?_
  · rw [rows_apply m c t p k (by omega), weight_apply m c t k q]
  · exact bias_apply m c t 0 q

/-- An index of the output array is in point `t`'s block iff each coordinate is in the block's range. -/
theorem mem_blk (t : Fin cfg0.N) (i : S32768x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v4).slice (win0_3.rect t)).set ↔ _
  rw [View.set_slice_whole, Rect.mem_set_unit]
  exact Iff.rfl

/-- Every row is in some point's block: row `r` in block `r / 2048`. -/
theorem cover (i : S32768x512.Idx) :
    ∃ t : Fin cfg0.N, (cfg0.win 3).flush t = true ∧ i ∈ ((cfg0.win 3).blk t).view.set := by
  have hN : cfg0.N = 16 := N_0
  have hi0 : (i 0).val < 32768 := (i 0).isLt
  have hi1 : (i 1).val < 512 := (i 1).isLt
  obtain ⟨t, ht⟩ : ∃ t : Fin cfg0.N, t.val = (i 0).val / 2048 := ⟨⟨(i 0).val / 2048, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- THE OUTPUT ARRAY after the grid is X·W + B. -/
theorem final (c : Dev nD) :
    (dats m 0 c).arrAt 3 cfg0.N = affine (V m c main_v0) (V m c main_v2) (V m c main_v3) :=
  (dats m 0 c).arrAt_eq_of_cover 3 _ (fun t _ => flushed_eq m c t) cover

end Cert.KernelIdeal.Bridge

end
-- ==== Proof.KernelRun.lean ====
/-
  The kernel's run, read: the result is the specification of the arguments.

  Before the grid the host re-reads the input as a matrix of rows, the weight as a matrix (narrowed: the identity over
  the extended reals) and the bias as a row; after it the host re-reads the output matrix at the result's shape. With the
  output matrix equal to X·W + B of those re-read arguments, the result buffer ends at the specification's `result`.
-/
import proofs.«139283_g2000004521431584_pallasbulk_209_2_alg».proof.Proof.KernelValue

noncomputable section

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen Cert.Affine

variable (m : (ℓ : Loc nD τ sig) → Buf (Elt Ideal) ℓ) (ρ : Dev nD → PrngReg)

/-- X as the grid finds it: the input re-read as a matrix of rows. -/
theorem V_rows (c : Dev nD) (h : S512x64x512.ShapeCasts S32768x512) :
    V m c main_v0 = shapeCast S32768x512 (m ((c : Thread nD τ).loc main_arg0)) h := by
  show StableHlo.after hostOps0 (fun b => m (c, b)) (Proc.devRef .tc main_v0) = _
  after_results
  rfl

/-- W as the grid finds it: the weight re-read as a matrix (its narrowing is the identity). -/
theorem V_weight (c : Dev nD) (h : S1x512x512.ShapeCasts S512x512) :
    (V m c main_v2 : S512x512.Idx → EReal) = shapeCast S512x512 (m ((c : Thread nD τ).loc main_arg1)) h := by
  show StableHlo.after hostOps0 (fun b => m (c, b)) (Proc.devRef .tc main_v2) = _
  after_results
  rfl

/-- B as the grid finds it: the bias re-read as a row. -/
theorem V_bias (c : Dev nD) (h : S1x1x512.ShapeCasts S1x512) :
    V m c main_v3 = shapeCast S1x512 (m ((c : Thread nD τ).loc main_arg2)) h := by
  show StableHlo.after hostOps0 (fun b => m (c, b)) (Proc.devRef .tc main_v3) = _
  after_results
  rfl

/-- The result buffer after the host's last line: the output matrix re-read at the result's shape. -/
theorem tail (c : Dev nD) (h : S32768x512.ShapeCasts S512x64x512) :
    Pipeline.afterTail₀ cfgs (dats m) 0 (V0 m) [hostOps1] c main_v5
      = shapeCast S512x64x512 ((dats m 0 c).arrAt 3 cfg0.N) h := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v4)
      = (dats m 0 c).arrAt 3 cfg0.N :=
    Pipeline.withArrays_arr spec0 launch0.win.arr_inj c (V0 m c) _ 3
  rw [e]
  rfl

/-- THE RUN, READ: every weakly fair execution ends with the result buffer at the specification of the arguments, and
    the arguments as they were. -/
theorem run (h0 : S512x64x512.ShapeCasts S32768x512) (h1 : S1x512x512.ShapeCasts S512x512)
    (h2 : S1x1x512.ShapeCasts S1x512) (h3 : S32768x512.ShapeCasts S512x64x512) :
    θ_run defs (onTc (τ := τ) (main (F := Ideal))) ⟨m, fun _ => 0, ρ⟩ (fun r => ∀ c : Dev nD,
      r.2.mem ((c.tc : Thread nD τ).loc main_v5)
        = result h0 h1 h2 h3 (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).2 main_v5 (Pipeline.mem_restRefs_of main_v5 (by decide) (by decide))).trans
        ((tail m c h3).trans (by rw [final, V_rows m c h0, V_weight m c h1, V_bias m c h2]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Bridge

end
-- ==== Proof.RefPayload.lean ====
/-
  The reference's block at an entry.

  One grid point of the reference zeroes its accumulator, adds to it the product of a block of 512 rows of X with a
  block of 256 columns of W, and stores accumulator + bias columns. The three stored values compose: the zero block,
  then  zero + rows · columns,  then that plus the bias. At row `p` of the block and column `q` the result is
  Σ_{k < 512} rows(p, k) · cols(k, q) + bias(0, q),  since zero is neutral for the sum of extended reals.
-/
import proofs.«139283_g2000004521431584_pallasbulk_209_2_alg».proof.Proof.Gen.ReferenceIdeal.Skeleton
import proofs.«139283_g2000004521431584_pallasbulk_209_2_alg».proof.Proof.LibMatmulPlain
import Idealize.ShloMosaic.Lib.Pipeline.Value

noncomputable section

open scoped BigOperators

namespace Cert.ReferenceIdeal.Bridge

open Idealize.ShloMosaic Idealize.ShloMosaic.ValueIdx Cert.ReferenceIdeal Cert.ReferenceIdeal.Gen

/-- The bias columns repeated down 512 rows read, at `(p, q)`, the row's entry `q`. -/
theorem bias_rows (b : FVec Ideal S1x256 .f32) (h : S1x256.Broadcasts S512x256) (p : Fin 512) (q : Fin 256) :
    broadcastTo S512x256 b h (ix2 p q) = b (ix2 (0 : Fin 1) q) :=
  broadcastTo_apply b h (ix2 p q) (ix2 (0 : Fin 1) q) (fun a => by
    match a with
    | ⟨0, _⟩ => rfl
    | ⟨1, _⟩ => rfl)

/-- The accumulator's first contents: zero everywhere. -/
theorem zero_apply (p : Fin 512) (q : Fin 256) : k0_pay1 (F := Ideal) (ix2 p q) = 0 := by
  unfold k0_pay1
  simp only [shapeCast_self]
  exact Ideal.ofBits_zero_f32

/-- The accumulator after the product is added: accumulator + rows · columns. -/
theorem acc_apply (a : FVec Ideal S512x256 .f32) (x0 : FVec Ideal S512x512 .f32) (x1 : FVec Ideal S512x256 .f32)
    (p : Fin 512) (q : Fin 256) :
    k0_pay2 (F := Ideal) a x0 x1 (ix2 p q) = a (ix2 p q) + ∑ k : Fin 512, x0 (ix2 p k) * x1 (ix2 k q) := by
  unfold k0_pay2
  simp only [shapeCast_self]
  refine (addf_apply _ _ _).trans ?_
  exact congrArg (a (ix2 p q) + ·) (Cert.LibMatmulPlain.matmul_plain_zero_apply _ rfl none x0 x1 p q)

/-- The stored block: accumulator + bias. -/
theorem out_apply (a : FVec Ideal S512x256 .f32) (x2 : FVec Ideal S1x256 .f32) (p : Fin 512) (q : Fin 256) :
    k0_pay3 (F := Ideal) a x2 (ix2 p q) = a (ix2 p q) + x2 (ix2 (0 : Fin 1) q) := by
  unfold k0_pay3
  simp only [shapeCast_self]
  refine (addf_apply _ _ _).trans ?_
  exact congrArg (a (ix2 p q) + ·) (bias_rows x2 _ p q)

/-- The three composed, at row `p`, column `q`. -/
theorem pay_apply (x0 : FVec Ideal S512x512 .f32) (x1 : FVec Ideal S512x256 .f32) (x2 : FVec Ideal S1x256 .f32)
    (p : Fin 512) (q : Fin 256) :
    k0_pay3 (F := Ideal) (k0_pay2 (F := Ideal) (k0_pay1 (F := Ideal)) x0 x1) x2 (ix2 p q)
      = (∑ k : Fin 512, x0 (ix2 p k) * x1 (ix2 k q)) + x2 (ix2 (0 : Fin 1) q) := by
  rw [out_apply, acc_apply, zero_apply, zero_add]

end Cert.ReferenceIdeal.Bridge

end
-- ==== Proof.RefValue.lean ====
/-
  The reference's result array.

  The reference's grid has 64 × 2 × 1 = 128 points; point `t` works on block row t / 2 (512 rows of X and of the
  output) and block column t % 2 (256 columns of W, of B and of the output), with the whole contraction in one step.
  Its body zeroes an accumulator, adds the block product, and stores accumulator + bias; read back through the
  accumulator's own stores, what it leaves in the output block is the composition of the three stored values. So what
  point `t` writes back is block (t / 2, t % 2) of the one matrix X·W + B, the 128 blocks cover the output, and the
  output array ends as X·W + B.
-/
import proofs.«139283_g2000004521431584_pallasbulk_209_2_alg».proof.Proof.Gen.ReferenceIdeal.Frame
import proofs.«139283_g2000004521431584_pallasbulk_209_2_alg».proof.Proof.RefPayload
import proofs.«139283_g2000004521431584_pallasbulk_209_2_alg».proof.Proof.Affine
import Idealize.ShloMosaic.Lib.Pipeline.Value
import Idealize.ShloMosaic.Lib.StableHlo.Run
import Idealize.ShloMosaic.Lib.Tactic

noncomputable section

open scoped BigOperators

namespace Cert.ReferenceIdeal.Bridge

open Idealize.ShloMosaic Idealize.ShloMosaic.TcCoe Idealize.ShloMosaic.Tactic Idealize.ShloMosaic.ValueIdx Idealize.SL.Sem
open Idealize.ShloMosaic.Pipeline (Dat)
open Cert.ReferenceIdeal Cert.ReferenceIdeal.Gen Cert.Affine

theorem hz : (![0, 0] : Fin 2 → Nat) = fun _ => 0 := funext fun a => by fin_cases a <;> rfl

/-- What the body leaves in the output's staging buffer, from the three input blocks: the accumulator's two stores are
    each read back whole through the rectangle they were stored through, so the stored values compose. -/
theorem out_A {F : FTy → Type} [FloatOps F] (c : Dev nD) (i : grid0.Coords)
    (a3 : Memref sig .tc .vmem S512x512 .f32) (h3 : a3.IsWhole)
    (a4 : Memref sig .tc .vmem S512x256 .f32) (h4 : a4.IsWhole) (a5 : Memref sig .tc .vmem S1x256 .f32) (h5 : a5.IsWhole)
    (a6 : Memref sig .tc .vmem S512x256 .f32) (h6 : a6.IsWhole) (a7 : Memref sig .tc .vmem S512x256 .f32) (h7 : a7.IsWhole)
    (hc0 : cond0_0 i) (hc1 : cond0_1 i)
    (x0 : Vec F S512x512 .f32) (x1 : Vec F S512x256 .f32) (x2 : Vec F S1x256 .f32) :
    out0_A_3 c i a3 h3 a4 h4 a5 h5 a6 h6 a7 h7 hc0 hc1 x0 x1 x2
      = k0_pay3 (k0_pay2 (k0_pay1 (F := F)) x0 x1) x2 := by
  unfold out0_A_3
  rw [View.read_writes_eq_canon _ _ _ (cover0_A_3 c i a3 h3 a4 h4 a5 h5 a6 h6 a7 h7 hc0 hc1 x0 x1 x2)]
  unfold kernelRun0_A
  dsimp only
  sl_unfold_words
  rw [View.canon_unit_zero hz]
  simp only [View.readCov_cons_toLoadRect, View.readAt_eq_ld, h3.read_unread, h4.read_unread, h5.read_unread,
    View.ld_unit_zero (S := S512x512) hz, View.ld_unit_zero (S := S512x256) hz, View.ld_unit_zero (S := S1x256) hz]

variable (m : (ℓ : Loc nD τ sig) → Buf (Elt Ideal) ℓ) (ρ : Dev nD → PrngReg)

/-- Where each window's block sits at point `t`: block row t / 2 for the rows of X and of the output, block column
    t % 2 for the columns of W, of B and of the output. -/
theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = 0 ∧ win0_2.index t (1 : Fin 2) = t.val % 2
    ∧ win0_3.index t (0 : Fin 2) = t.val / 2 ∧ win0_3.index t (1 : Fin 2) = t.val % 2 :=
  (by decide +kernel : ∀ t : Fin grid0.N, _)

/-- Row `p` of the rows block at point `t` is row 512·(t / 2) + p of X. -/
theorem rows_apply (c : Dev nD) (t : Fin cfg0.N) (p : Fin 512) (k : Fin 512) (h : 512 * (t.val / 2) + p.val < 32768) :
    iblk m c 0 t (ix2 p k) = V m c main_v0 (ix2 (⟨512 * (t.val / 2) + p.val, h⟩ : Fin 32768) k) := by
  obtain ⟨e0, e1, -⟩ := idx_facts t
  unfold iblk
  rw [View.read_apply]
  show V m c main_v0 (((cfg0.win 0).blk t).view.emb (ix2 p k)) = V m c main_v0 _
  refine congrArg (V m c main_v0) (funext fun a => Fin.ext ?_)
  match a with
  | ⟨0, _⟩ => show win0_0.index t (0 : Fin 2) * 512 + 1 * p.val = 512 * (t.val / 2) + p.val; omega
  | ⟨1, _⟩ => show win0_0.index t (1 : Fin 2) * 512 + 1 * k.val = k.val; omega

/-- Column `q` of the columns block at point `t` is column 256·(t % 2) + q of W. -/
theorem cols_apply (c : Dev nD) (t : Fin cfg0.N) (k : Fin 512) (q : Fin 256) (h : 256 * (t.val % 2) + q.val < 512) :
    iblk m c 1 t (ix2 k q) = V m c main_v1 (ix2 k (⟨256 * (t.val % 2) + q.val, h⟩ : Fin 512)) := by
  obtain ⟨-, -, e2, e3, -⟩ := idx_facts t
  unfold iblk
  rw [View.read_apply]
  show V m c main_v1 (((cfg0.win 1).blk t).view.emb (ix2 k q)) = V m c main_v1 _
  refine congrArg (V m c main_v1) (funext fun a => Fin.ext ?_)
  match a with
  | ⟨0, _⟩ => show win0_1.index t (0 : Fin 2) * 512 + 1 * k.val = k.val; omega
  | ⟨1, _⟩ => show win0_1.index t (1 : Fin 2) * 256 + 1 * q.val = 256 * (t.val % 2) + q.val; omega

/-- Column `q` of the bias block at point `t` is column 256·(t % 2) + q of B. -/
theorem bias_apply (c : Dev nD) (t : Fin cfg0.N) (z : Fin 1) (q : Fin 256) (h : 256 * (t.val % 2) + q.val < 512) :
    iblk m c 2 t (ix2 z q) = V m c main_v2 (ix2 z (⟨256 * (t.val % 2) + q.val, h⟩ : Fin 512)) := by
  obtain ⟨-, -, -, -, e4, e5, -⟩ := idx_facts t
  unfold iblk
  rw [View.read_apply]
  show V m c main_v2 (((cfg0.win 2).blk t).view.emb (ix2 z q)) = V m c main_v2 _
  refine congrArg (V m c main_v2) (funext fun a => Fin.ext ?_)
  match a with
  | ⟨0, _⟩ => show win0_2.index t (0 : Fin 2) * 1 + 1 * z.val = z.val; omega
  | ⟨1, _⟩ => show win0_2.index t (1 : Fin 2) * 256 + 1 * q.val = 256 * (t.val % 2) + q.val; omega

/-- WHAT POINT `t` WRITES BACK is block (t / 2, t % 2) of X·W + B, over the arrays as the grid finds them. -/
theorem flushed_eq (c : Dev nD) (t : Fin cfg0.N) :
    (dats m 0 c).flushed 3 t
      = ((cfg0.win 3).blk t).view.read (Elt Ideal) (affine (V m c main_v0) (V m c main_v1) (V m c main_v2)) := by
  show (cfg0.win 3).cut (grid0.coords t) ((dats m 0 c).after 3 t) = _
  rw [after0_3]
  unfold outsAt0
  rw [out_A (F := Ideal) c (grid0.coords t) (ms0_0 t) (hs0_0 t) (ms0_1 t) (hs0_1 t) (ms0_2 t) (hs0_2 t) (ms0_3 t) (hs0_3 t)
    scM0_0 (Memref.isWhole_whole _) (hcond0_0 t) (hcond0_1 t) (iblk m c 0 t) (iblk m c 1 t) (iblk m c 2 t)]
  have hN : cfg0.N = 128 := N_0
  have ht : t.val < 128 := by have := t.isLt; omega
  obtain ⟨-, -, -, -, -, -, e6, e7⟩ := idx_facts t
  refine funext fun (j : S512x256.Idx) => ?_
  obtain ⟨p, q, rfl⟩ : ∃ (p : Fin 512) (q : Fin 256), j = ix2 p q := ⟨j 0, j 1, eq_ix2 j⟩
  have hp : p.val < 512 := p.isLt
  have hq : q.val < 256 := q.isLt
  have hemb : ((cfg0.win 3).blk t).view.emb (ix2 p q)
      = ix2 (⟨512 * (t.val / 2) + p.val, by omega⟩ : Fin 32768) (⟨256 * (t.val % 2) + q.val, by omega⟩ : Fin 512) :=
    funext fun a => Fin.ext (by
      match a with
      | ⟨0, _⟩ => show win0_3.index t (0 : Fin 2) * 512 + 1 * p.val = 512 * (t.val / 2) + p.val; omega
      | ⟨1, _⟩ => show win0_3.index t (1 : Fin 2) * 256 + 1 * q.val = 256 * (t.val % 2) + q.val; omega)
  show k0_pay3 (k0_pay2 k0_pay1 (iblk m c 0 t) (iblk m c 1 t)) (iblk m c 2 t) (ix2 p q)
    = affine (V m c main_v0) (V m c main_v1) (V m c main_v2) (((cfg0.win 3).blk t).view.emb (ix2 p q))
  rw [hemb, affine_apply, pay_apply]
  unfold entry
  refine congrArg₂ (· + ·) (Finset.sum_congr rfl fun k _ => ?_) ?_
  · rw [rows_apply m c t p k (by omega), cols_apply m c t k q (by omega)]
  · exact bias_apply m c t 0 q (by omega)

/-- An index of the output array is in point `t`'s block iff each coordinate is in the block's range. -/
theorem mem_blk (t : Fin cfg0.N) (i : S32768x512.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v3).slice (win0_3.rect t)).set ↔ _
  rw [View.set_slice_whole, Rect.mem_set_unit]
  exact Iff.rfl

/-- Every entry is in some point's block: row `r`, column `n` in the block of point 2·(r / 512) + n / 256. -/
theorem cover (i : S32768x512.Idx) :
    ∃ t : Fin cfg0.N, (cfg0.win 3).flush t = true ∧ i ∈ ((cfg0.win 3).blk t).view.set := by
  have hN : cfg0.N = 128 := N_0
  have hi0 : (i 0).val < 32768 := (i 0).isLt
  have hi1 : (i 1).val < 512 := (i 1).isLt
  obtain ⟨t, ht⟩ : ∃ t : Fin cfg0.N, t.val = 2 * ((i 0).val / 512) + (i 1).val / 256 :=
    ⟨⟨2 * ((i 0).val / 512) + (i 1).val / 256, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 256 ≤ (i 1).val ∧ (i 1).val < win0_3.index t (1 : Fin 2) * 256 + 256
    omega

/-- THE OUTPUT ARRAY after the grid is X·W + B. -/
theorem final (c : Dev nD) :
    (dats m 0 c).arrAt 3 cfg0.N = affine (V m c main_v0) (V m c main_v1) (V m c main_v2) :=
  (dats m 0 c).arrAt_eq_of_cover 3 _ (fun t _ => flushed_eq m c t) cover

end Cert.ReferenceIdeal.Bridge

end
-- ==== Proof.RefRun.lean ====
/-
  The reference's run, read: the result is the specification of the arguments.

  Before the grid the host re-reads the input as a matrix of rows, the weight as a matrix and the bias as a row; after it
  the host re-reads the output matrix at the result's shape. With the output matrix equal to X·W + B of those re-read
  arguments, the result buffer ends at the specification's `result`.
-/
import proofs.«139283_g2000004521431584_pallasbulk_209_2_alg».proof.Proof.RefValue

noncomputable section

namespace Cert.ReferenceIdeal.Bridge

open Idealize.ShloMosaic Idealize.ShloMosaic.TcCoe Idealize.ShloMosaic.ValueIdx Idealize.SL.Sem
open Idealize.ShloMosaic.Pipeline (Dat)
open Cert.ReferenceIdeal Cert.ReferenceIdeal.Gen Cert.Affine

variable (m : (ℓ : Loc nD τ sig) → Buf (Elt Ideal) ℓ) (ρ : Dev nD → PrngReg)

/-- X as the grid finds it: the input re-read as a matrix of rows. -/
theorem V_rows (c : Dev nD) (h : S512x64x512.ShapeCasts S32768x512) :
    V m c main_v0 = shapeCast S32768x512 (m ((c : Thread nD τ).loc main_arg0)) h := by
  show StableHlo.after hostOps0 (fun b => m (c, b)) (Proc.devRef .tc main_v0) = _
  after_results
  rfl

/-- W as the grid finds it: the weight re-read as a matrix. -/
theorem V_weight (c : Dev nD) (h : S1x512x512.ShapeCasts S512x512) :
    V m c main_v1 = shapeCast S512x512 (m ((c : Thread nD τ).loc main_arg1)) h := by
  show StableHlo.after hostOps0 (fun b => m (c, b)) (Proc.devRef .tc main_v1) = _
  after_results
  rfl

/-- B as the grid finds it: the bias re-read as a row. -/
theorem V_bias (c : Dev nD) (h : S1x1x512.ShapeCasts S1x512) :
    V m c main_v2 = shapeCast S1x512 (m ((c : Thread nD τ).loc main_arg2)) h := by
  show StableHlo.after hostOps0 (fun b => m (c, b)) (Proc.devRef .tc main_v2) = _
  after_results
  rfl

/-- The result buffer after the host's last line: the output matrix re-read at the result's shape. -/
theorem tail (c : Dev nD) (h : S32768x512.ShapeCasts S512x64x512) :
    Pipeline.afterTail₀ cfgs (dats m) 0 (V0 m) [hostOps1] c main_v4
      = shapeCast S512x64x512 ((dats m 0 c).arrAt 3 cfg0.N) h := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = (dats m 0 c).arrAt 3 cfg0.N :=
    Pipeline.withArrays_arr spec0 launch0.win.arr_inj c (V0 m c) _ 3
  rw [e]
  rfl

/-- THE RUN, READ: every weakly fair execution ends with the result buffer at the specification of the arguments, and
    the arguments as they were. -/
theorem run (h0 : S512x64x512.ShapeCasts S32768x512) (h1 : S1x512x512.ShapeCasts S512x512)
    (h2 : S1x1x512.ShapeCasts S1x512) (h3 : S32768x512.ShapeCasts S512x64x512) :
    θ_run defs (onTc (τ := τ) (main (F := Ideal))) ⟨m, fun _ => 0, ρ⟩ (fun r => ∀ c : Dev nD,
      r.2.mem ((c.tc : Thread nD τ).loc main_v4)
        = result h0 h1 h2 h3 (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).2 main_v4 (Pipeline.mem_restRefs_of main_v4 (by decide) (by decide))).trans
        ((tail m c h3).trans (by rw [final, V_rows m c h0, V_weight m c h1, V_bias m c h2]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Bridge

end
-- ==== Proof.lean ====
/-
  One shared linear layer, out[b, c, :] = x[b, c, :] · W + bias, computed two ways.

  The kernel reads x as a matrix X of 32768 rows, narrows its operands and multiplies 2048 rows at a time by the whole
  of W in one product, adding the bias. The reference multiplies 512 rows by 256 columns at a time into a zeroed
  accumulator and adds the bias when the (single) contraction step is done. Over the extended reals a change of
  format is the identity, a product into the zero matrix is the plain sum of products, and zero is neutral for
  addition, so both output matrices are X·W + B entry by entry (the same sum over the same 512 terms in the same
  order), whatever the tiling; no finiteness of the inputs is needed. Both programs re-read the arguments and the
  result through the same row-major reshapes, which are carried along unopened.

  The three frames are the generated frame certificates; the idealization rewrote nothing, so there is nothing to
  preserve; the comparison of values is `algebraic` below, from the two runs read in KernelRun and RefRun against the
  one specification in Affine.
-/
import proofs.«139283_g2000004521431584_pallasbulk_209_2_alg».proof.Defs
import proofs.«139283_g2000004521431584_pallasbulk_209_2_alg».proof.Proof.Gen.Kernel
import proofs.«139283_g2000004521431584_pallasbulk_209_2_alg».proof.Proof.Gen.Kernel.Frame
import proofs.«139283_g2000004521431584_pallasbulk_209_2_alg».proof.Proof.Gen.KernelIdeal
import proofs.«139283_g2000004521431584_pallasbulk_209_2_alg».proof.Proof.Gen.KernelIdeal.Frame
import proofs.«139283_g2000004521431584_pallasbulk_209_2_alg».proof.Proof.Gen.ReferenceIdeal
import proofs.«139283_g2000004521431584_pallasbulk_209_2_alg».proof.Proof.Gen.ReferenceIdeal.Frame
import proofs.«139283_g2000004521431584_pallasbulk_209_2_alg».proof.Proof.Gen.Pre_finite_inputs
import proofs.«139283_g2000004521431584_pallasbulk_209_2_alg».proof.Proof.KernelRun
import proofs.«139283_g2000004521431584_pallasbulk_209_2_alg».proof.Proof.RefRun
import Idealize.ShloMosaic.Adequacy
import Idealize.ShloMosaic.Init

noncomputable section

namespace Cert.Proof

open Idealize.ShloMosaic Idealize.SL.Sem

/-- The kernel as printed runs, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference. -/
theorem frame_ri : Cert.frame_ReferenceIdeal := fun m ρ _ => Cert.ReferenceIdeal.Gen.frame m ρ

/-- The idealization rewrote no operation. -/
theorem preserves : Cert.preserves_Kernel_KernelIdeal := trivial

/-- From memories that agree on the three arguments, both programs end with the result buffer at the specification
    of those arguments: X·W + B re-read at the result's shape. -/
theorem algebraic : Cert.algebraic_KernelIdeal_ReferenceIdeal := by
  intro m ρ m' ρ' _ hagree
  have h0 : Cert.Affine.S3X.ShapeCasts Cert.Affine.SX := Cert.KernelIdeal.Facts₀.shapeCasts_S512x64x512_S32768x512
  have h1 : Cert.Affine.S3W.ShapeCasts Cert.Affine.SW := Cert.KernelIdeal.Facts₀.shapeCasts_S1x512x512_S512x512
  have h2 : Cert.Affine.S3B.ShapeCasts Cert.Affine.SB := Cert.KernelIdeal.Facts₀.shapeCasts_S1x1x512_S1x512
  have h3 : Cert.Affine.SX.ShapeCasts Cert.Affine.S3X := Cert.KernelIdeal.Facts₀.shapeCasts_S32768x512_S512x64x512
  refine ⟨_, Cert.KernelIdeal.Bridge.run m ρ h0 h1 h2 h3, ?_⟩
  refine (θ_run Cert.ReferenceIdeal.defs _ _).mono (fun _ h c => ⟨(h c).1.trans ?_, (h c).2⟩)
    (Cert.ReferenceIdeal.Bridge.run m' ρ' h0 h1 h2 h3)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
